-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : IVec S2x600000 32) (main_arg2 : FVec F S1x128 .f32) (main_arg3 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S1x128 : Shape := ⟨2, ![1, 128]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S5000x128 : Shape := ⟨2, ![5000, 128]⟩
abbrev S5000x1 : Shape := ⟨2, ![5000, 1]⟩
abbrev S128x1 : Shape := ⟨2, ![128, 1]⟩

abbrev nBuf : Space → Nat
  | .hbm => 79
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S1x128, .f32⟩
  | .hbm, ⟨3, _⟩ => ⟨S1, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S700000, .i32⟩
  | .hbm, ⟨27, _⟩ => ⟨S700000, .i1⟩
  | .hbm, ⟨28, _⟩ => ⟨S_, .i32⟩
  | .hbm, ⟨29, _⟩ => ⟨S700000, .i32⟩
  | .hbm, ⟨30, _⟩ => ⟨S700000, .i32⟩
  | .hbm, ⟨31, _⟩ => ⟨S700000, .i32⟩
  | .hbm, ⟨32, _⟩ => ⟨S700000x1, .i32⟩
  | .hbm, ⟨33, _⟩ => ⟨S700000, .f32⟩
  | .hbm, ⟨34, _⟩ => ⟨S700000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S700000, .f32⟩
  | .hbm, ⟨45, _⟩ => ⟨S100000x1, .f32⟩
  | .hbm, ⟨46, _⟩ => ⟨S700000x1, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x1, .f32⟩
  | .hbm, ⟨56, _⟩ => ⟨S700000x1, .f32⟩
  | .hbm, ⟨57, _⟩ => ⟨S_, .f32⟩
  | .hbm, ⟨58, _⟩ => ⟨S100000x1, .f32⟩
  | .hbm, ⟨59, _⟩ => ⟨S700000x1, .i32⟩
  | .hbm, ⟨60, _⟩ => ⟨S100000x1, .f32⟩
  | .hbm, ⟨61, _⟩ => ⟨S700000x1, .f32⟩
  | .hbm, ⟨62, _⟩ => ⟨S_, .i32⟩
  | .hbm, ⟨63, _⟩ => ⟨S700000, .i32⟩
  | .hbm, ⟨64, _⟩ => ⟨S700000, .i1⟩
  | .hbm, ⟨65, _⟩ => ⟨S_, .i32⟩
  | .hbm, ⟨66, _⟩ => ⟨S700000, .i32⟩
  | .hbm, ⟨67, _⟩ => ⟨S700000, .i32⟩
  | .hbm, ⟨68, _⟩ => ⟨S700000, .i32⟩
  | .hbm, ⟨69, _⟩ => ⟨S700000x1, .i32⟩
  | .hbm, ⟨70, _⟩ => ⟨S700000x1, .f32⟩
  | .hbm, ⟨71, _⟩ => ⟨S700000x1, .f32⟩
  | .hbm, ⟨72, _⟩ => ⟨S_, .f32⟩
  | .hbm, ⟨73, _⟩ => ⟨S100000x1, .f32⟩
  | .hbm, ⟨74, _⟩ => ⟨S700000x1, .i32⟩
  | .hbm, ⟨75, _⟩ => ⟨S100000x1, .f32⟩
  | .hbm, ⟨76, _⟩ => ⟨S100000, .f32⟩
  | .hbm, ⟨77, _⟩ => ⟨S100000, .f32⟩
  | .hbm, ⟨78, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S5000x1, .f32⟩
  | .local _ .vmem, ⟨4, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  shapeCasts_S100000x1_S100000 : S100000x1.ShapeCasts S100000
  bcast_S1_S100000_0 : S1.BroadcastsInDim S100000 (![0] : Fin 1 → Fin S100000.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x1_S5000x1_1_0_0_1_n_n_wf : DotDims.WF S5000x128 S128x1 S5000x1 [1] [0] [0] [1] [] []
  gather_S100000x1_S700000x1_S700000x1_1_0_n_n_0_1_11_wf : GatherDims.WF S100000x1 S700000x1 S700000x1 [1] [0] [] [0] [] 1 ![1, 1]
  scatter_S100000x1_S700000x1_S700000x1_1_0_0_1_wf : ScatterDims.WF S100000x1 S700000x1 S700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S700000x1_S700000x1_1_0_n_n_0_1_11 : GatherDims S100000x1 S700000x1 S700000x1 where
  offsetDims := [1]
  collapsedSliceDims := [0]
  operandBatchingDims := []
  startIndicesBatchingDims := []
  startIndexMap := [0]
  indexVectorDim := 1
  sliceSizes := ![1, 1]
  wf := gather_S100000x1_S700000x1_S700000x1_1_0_n_n_0_1_11_wf
def scatter_S100000x1_S700000x1_S700000x1_1_0_0_1 : ScatterDims S100000x1 S700000x1 S700000x1 where
  updateWindowDims := [1]
  insertedWindowDims := [0]
  scatterDimsToOperandDims := [0]
  indexVectorDim := 1
  wf := scatter_S100000x1_S700000x1_S700000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S1x128 : Shape := ⟨2, ![1, 128]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S1x128, .f32⟩
  | .hbm, ⟨3, _⟩ => ⟨S1, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S700000, .i32⟩
  | .hbm, ⟨27, _⟩ => ⟨S700000, .i1⟩
  | .hbm, ⟨28, _⟩ => ⟨S_, .i32⟩
  | .hbm, ⟨29, _⟩ => ⟨S700000, .i32⟩
  | .hbm, ⟨30, _⟩ => ⟨S700000, .i32⟩
  | .hbm, ⟨31, _⟩ => ⟨S700000, .i32⟩
  | .hbm, ⟨32, _⟩ => ⟨S700000x1, .i32⟩
  | .hbm, ⟨33, _⟩ => ⟨S700000, .f32⟩
  | .hbm, ⟨34, _⟩ => ⟨S700000, .f32⟩
  | .hbm, ⟨35, _⟩ => ⟨S_, .i32⟩
  | .hbm, ⟨36, _⟩ => ⟨S700000, .i32⟩
  | .hbm, ⟨37, _⟩ => ⟨S700000, .i1⟩
  | .hbm, ⟨38, _⟩ => ⟨S_, .i32⟩
  | .hbm, ⟨39, _⟩ => ⟨S700000, .i32⟩
  | .hbm, ⟨40, _⟩ => ⟨S700000, .i32⟩
  | .hbm, ⟨41, _⟩ => ⟨S700000, .i32⟩
  | .hbm, ⟨42, _⟩ => ⟨S700000x1, .i32⟩
  | .hbm, ⟨43, _⟩ => ⟨S700000, .f32⟩
  | .hbm, ⟨44, _⟩ => ⟨S700000, .f32⟩
  | .hbm, ⟨45, _⟩ => ⟨S700000x1, .f32⟩
  | .hbm, ⟨46, _⟩ => ⟨S_, .i32⟩
  | .hbm, ⟨47, _⟩ => ⟨S700000, .i32⟩
  | .hbm, ⟨48, _⟩ => ⟨S700000, .i1⟩
  | .hbm, ⟨49, _⟩ => ⟨S_, .i32⟩
  | .hbm, ⟨50, _⟩ => ⟨S700000, .i32⟩
  | .hbm, ⟨51, _⟩ => ⟨S700000, .i32⟩
  | .hbm, ⟨52, _⟩ => ⟨S700000, .i32⟩
  | .hbm, ⟨53, _⟩ => ⟨S700000x1, .i32⟩
  | .hbm, ⟨54, _⟩ => ⟨S700000x128, .f32⟩
  | .hbm, ⟨55, _⟩ => ⟨S700000x128, .f32⟩
  | .hbm, ⟨56, _⟩ => ⟨S700000x128, .f32⟩
  | .hbm, ⟨57, _⟩ => ⟨S_, .f32⟩
  | .hbm, ⟨58, _⟩ => ⟨S100000x128, .f32⟩
  | .hbm, ⟨59, _⟩ => ⟨S700000x1, .i32⟩
  | .hbm, ⟨60, _⟩ => ⟨S100000x128, .f32⟩
  | .hbm, ⟨61, _⟩ => ⟨S700000x1, .f32⟩
  | .hbm, ⟨62, _⟩ => ⟨S_, .i32⟩
  | .hbm, ⟨63, _⟩ => ⟨S700000, .i32⟩
  | .hbm, ⟨64, _⟩ => ⟨S700000, .i1⟩
  | .hbm, ⟨65, _⟩ => ⟨S_, .i32⟩
  | .hbm, ⟨66, _⟩ => ⟨S700000, .i32⟩
  | .hbm, ⟨67, _⟩ => ⟨S700000, .i32⟩
  | .hbm, ⟨68, _⟩ => ⟨S700000, .i32⟩
  | .hbm, ⟨69, _⟩ => ⟨S700000x1, .i32⟩
  | .hbm, ⟨70, _⟩ => ⟨S700000x128, .f32⟩
  | .hbm, ⟨71, _⟩ => ⟨S700000x128, .f32⟩
  | .hbm, ⟨72, _⟩ => ⟨S700000x128, .f32⟩
  | .hbm, ⟨73, _⟩ => ⟨S_, .f32⟩
  | .hbm, ⟨74, _⟩ => ⟨S100000x128, .f32⟩
  | .hbm, ⟨75, _⟩ => ⟨S700000x1, .i32⟩
  | .hbm, ⟨76, _⟩ => ⟨S100000x128, .f32⟩
  | .hbm, ⟨77, _⟩ => ⟨S128x1, .f32⟩
  | .hbm, ⟨78, _⟩ => ⟨S100000x1, .f32⟩
  | .hbm, ⟨79, _⟩ => ⟨S1x1, .f32⟩
  | .hbm, ⟨80, _⟩ => ⟨S100000x1, .f32⟩
  | .hbm, ⟨81, _⟩ => ⟨S100000x1, .f32⟩
  | .hbm, ⟨82, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x1_S100000x1_1_0_0_1_n_n_wf : DotDims.WF S100000x128 S128x1 S100000x1 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibRowScatter.lean ====
/-
  ROW SCATTER-ADD AND ROW GATHER, READ AT AN INDEX.

  Two shape operations on a rank-2 array whose rows are addressed by an integer array of row numbers.

  * Accumulating by rows, `x.at[idx].add(u)`: a `stablehlo.scatter` with an add body, for an operand `[N, C]`, scatter
    indices `[M, 1]` and updates `[M, C]`, with update_window_dims `[1]`, inserted_window_dims `[0]`,
    scatter_dims_to_operand_dims `[0]` and index_vector_dim `1`. Update `(e, c)` lands on operand element `(n, c')`
    exactly when the start index `idx[e, 0]`, read as a SIGNED integer and NOT clamped, is `n` and `c = c'`; an update
    whose start index is outside `[0, N)` is dropped. So at the ideal instance the result at `(n, c)` is
    `x(n, c)` plus the sum of `u(e, c)` over the rows `e` whose index is `n`.

  * Reading by rows, `x[idx]`: a `stablehlo.gather` for an operand `[N, C]`, start indices `[M, 1]` and result
    `[M, C]`, with offset_dims `[1]`, collapsed_slice_dims `[0]`, start_index_map `[0]`, index_vector_dim `1` and
    slice_sizes `[1, C]`. Result `(e, c)` is the operand at row `min (idx[e, 0] signed, negative → 0) (N − 1)` (the
    start index clamped so that the one-row slice fits) and column `c`.

  Everything is generic in `N`, `M`, `C` and the index width; the dimension numbers' well-formedness is a hypothesis.
-/
import Idealize.ShloMosaic.Lib.ValueIdx
import Idealize.ShloMosaic.PureOps.Ideal

noncomputable section

open Idealize.ShloMosaic Idealize.ShloMosaic.ValueIdx
open scoped BigOperators

namespace Cert.Lib.RowScatter

/-! ## The scatter-add by rows -/

/-- The dimension numbers of a scatter by rows: operand `[N, C]`, scatter indices `[M, 1]`, updates `[M, C]`; the
    updates' axis 1 is the window axis, the operand's axis 0 is inserted (the window is one row), the single index
    component names operand axis 0, and the index vector lies along axis 1 of the scatter indices. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The rows an index array sends to row n. -/
def landing {M w : Nat} (idx : IVec ⟨2, ![M, 1]⟩ w) (n : Nat) : Finset (Fin M) :=
  Finset.univ.filter fun e => (idx (ix2 e (0 : Fin 1))).toInt = (n : ℤ)

/-- An operand axis receives a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- Update `(e, c)` reads its (only) start-index component at `idx[e, 0]`: the row coordinate is the update's, the
    index-vector coordinate is the component's number, which is `0` since there is one component. -/
theorem rowScatter_siIdx {N M C : Nat} (wf) (e : Fin M) (c : Fin C)
    (k : Fin (rowScatterDims N M C wf).scatterDimsToOperandDims.length) :
    (rowScatterDims N M C wf).siIdx (ix2 e c) k = ix2 e (0 : Fin 1) := by
  funext b; refine Fin.ext ?_
  match b with
  | ⟨0, _⟩ => rfl
  | ⟨1, _⟩ =>
    have h : k.val < 1 := k.isLt
    show k.val = 0
    omega

/-- On operand axis 0 the window of update `(e, c)` starts at `idx[e, 0]`, read signed and not clamped. -/
theorem rowScatter_start0 {N M C w : Nat} (wf) (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl),
    rowScatter_siIdx]

/-- On operand axis 1, which no index component names, the window starts at `0`. -/
theorem rowScatter_start1 {N M C w : Nat} (wf) (idx : IVec ⟨2, ![M, 1]⟩ w) (e : Fin M) (c : Fin C) :
    (rowScatterDims N M C wf).start (ix2 e c) idx 1 = 0 := by
  unfold ScatterDims.start
  rw [dif_neg (show (1 : Fin 2) ∉ [(0 : Fin 2)] by decide)]

/-- Operand axis 0 is inserted: the window coordinate on it is `0`. -/
theorem rowScatter_window0 {N M C : Nat} (wf) (e : Fin M) (c : Fin C) :
    (rowScatterDims N M C wf).window (ix2 e c) 0 = 0 := by
  unfold ScatterDims.window
  rw [dif_neg (fun h => ((scatter_mem_sKept _ _).mp h) (List.mem_singleton.mpr rfl))]

/-- Operand axis 1 is the only kept axis and the updates' axis 1 the only window axis: the window coordinate of
    update `(e, c)` on it is `c`. -/
theorem rowScatter_window1 {N M C : Nat} (wf) (e : Fin M) (c : Fin C) :
    (rowScatterDims N M C wf).window (ix2 e c) 1 = c.val := by
  unfold ScatterDims.window
  rw [dif_pos ((scatter_mem_sKept _ _).mpr (show (1 : Fin 2) ∉ [(0 : Fin 2)] by decide))]
  rfl

/-- WHERE AN UPDATE LANDS: update `(e, c)` lands on operand element `(n, c')` exactly when its start index
    `idx[e, 0]`, read signed, is `n` (hence in range: nothing is clamped, an out-of-range row is dropped) and the
    columns agree. The landing index is start plus window coordinate on each axis: `idx[e, 0] + 0` on axis 0 and
    `0 + c` on axis 1, defined when both are inside the operand. -/
theorem rowScatter_resultIdx?_eq_some_iff {N M C w : Nat} (wf) (idx : IVec ⟨2, ![M, 1]⟩ w) (e : Fin M) (c : Fin C)
    (n : Fin N) (c' : Fin C) :
    (rowScatterDims N M C wf).resultIdx? (ix2 e c) idx = some (ix2 n c') ↔
      (idx (ix2 e (0 : Fin 1))).toInt = (n.val : ℤ) ∧ c = c' := by
  have hs0 := rowScatter_start0 wf idx e c
  have hs1 := rowScatter_start1 wf idx e c
  have hw0 := rowScatter_window0 wf e c
  have hw1 := rowScatter_window1 wf e c
  unfold ScatterDims.resultIdx?
  constructor
  · intro h
    split at h
    · rename_i hall
      have hf := Option.some.inj h
      have h0 := congrArg Fin.val (congrFun hf 0)
      have h1 := congrArg Fin.val (congrFun hf 1)
      have ha0 := (hall 0).1
      have ha1 := (hall 1).1
      simp only [hs0, hs1, hw0, hw1] at h0 h1 ha0 ha1
      change _ = n.val at h0
      change _ = c'.val at h1
      refine ⟨by omega, Fin.ext (by omega)⟩
    · exact absurd h (by simp)
  · rintro ⟨hn, rfl⟩
    have hall : ∀ a, 0 ≤ (rowScatterDims N M C wf).start (ix2 e c) idx a + (rowScatterDims N M C wf).window (ix2 e c) a ∧
        (rowScatterDims N M C wf).start (ix2 e c) idx a + (rowScatterDims N M C wf).window (ix2 e c) a <
          (⟨2, ![N, C]⟩ : Shape).size a := by
      intro a
      match a with
      | ⟨0, _⟩ =>
        show 0 ≤ (rowScatterDims N M C wf).start (ix2 e c) idx 0 + (rowScatterDims N M C wf).window (ix2 e c) 0 ∧
          (rowScatterDims N M C wf).start (ix2 e c) idx 0 + (rowScatterDims N M C wf).window (ix2 e c) 0 < (N : ℤ)
        rw [hs0, hw0, hn]
        have := n.isLt
        omega
      | ⟨1, _⟩ =>
        show 0 ≤ (rowScatterDims N M C wf).start (ix2 e c) idx 1 + (rowScatterDims N M C wf).window (ix2 e c) 1 ∧
          (rowScatterDims N M C wf).start (ix2 e c) idx 1 + (rowScatterDims N M C wf).window (ix2 e c) 1 < (C : ℤ)
        rw [hs1, hw1]
        have := c.isLt
        omega
    rw [dif_pos hall]
    congr 1
    funext a
    refine Fin.ext ?_
    match a with
    | ⟨0, _⟩ =>
      show ((rowScatterDims N M C wf).start (ix2 e c) idx 0 + (rowScatterDims N M C wf).window (ix2 e c) 0).toNat = n.val
      rw [hs0, hw0, hn]; omega
    | ⟨1, _⟩ =>
      show ((rowScatterDims N M C wf).start (ix2 e c) idx 1 + (rowScatterDims N M C wf).window (ix2 e c) 1).toNat = c.val
      rw [hs1, hw1]; omega

/-- THE SCATTER-ADD BY ROWS READ AT `(n, c)`, at the ideal instance: the operand's element plus the sum, over the
    rows `e` whose index is `n`, of the update's element `(e, c)`. The sum over the update indices that land on
    `(n, c)` is split by coordinates; by the landing criterion the inner sum over columns keeps the one term at
    column `c` when row `e`'s index is `n`, and is empty otherwise. -/
theorem rowScatterAdd_apply {N M C w : Nat} {φ : FTy} (wf) (x : FVec Ideal ⟨2, ![N, C]⟩ φ) (idx : IVec ⟨2, ![M, 1]⟩ w)
    (upd : FVec Ideal ⟨2, ![M, C]⟩ φ) (n : Fin N) (c : Fin C) :
    Host.scatterAdd (F := Ideal) (rowScatterDims N M C wf) x idx upd (ix2 n c) =
      (x (ix2 n c) + ∑ e ∈ landing idx n.val, upd (ix2 e c) : EReal) := by
  show Ideal.hostScatterAdd (rowScatterDims N M C wf) x idx upd (ix2 n c) = _
  unfold Ideal.hostScatterAdd
  congr 1
  rw [Finset.sum_filter, sum_idx2]
  unfold landing
  rw [Finset.sum_filter]
  refine Finset.sum_congr rfl fun a _ => ?_
  simp only [rowScatter_resultIdx?_eq_some_iff]
  by_cases ha : (idx (ix2 a (0 : Fin 1))).toInt = (n.val : ℤ)
  · simp only [ha, true_and, if_true]
    exact Finset.sum_ite_eq' Finset.univ c (fun b => upd (ix2 a b)) |>.trans (if_pos (Finset.mem_univ c))
  · simp only [ha, false_and, if_false]
    exact Finset.sum_const_zero

/-! ## The gather by rows -/

/-- The dimension numbers of a gather by rows: operand `[N, C]`, start indices `[M, 1]`, result `[M, C]`; the
    result's axis 1 is the offset axis, the operand's axis 0 is collapsed (the slice is one row, `[1, C]`), the
    single index component names operand axis 0, and the index vector lies along axis 1 of the start indices. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a start index reads: signed, clamped into [0, N−1]. -/
def srcRow {M w : Nat} (N : Nat) (hN : 0 < N) (idx : IVec ⟨2, ![M, 1]⟩ w) (e : Fin M) : Fin N :=
  ⟨min (idx (ix2 e (0 : Fin 1))).toInt.toNat (N - 1), by omega⟩

/-- Result `(e, c)` reads its (only) start-index component at `idx[e, 0]`: the row coordinate is the result's, the
    index-vector coordinate is the component's number, which is `0` since there is one component. -/
theorem rowGather_siIdx {N M C : Nat} (wf) (e : Fin M) (c : Fin C)
    (k : Fin (rowGatherDims N M C wf).startIndexMap.length) :
    (rowGatherDims N M C wf).siIdx (ix2 e c) k = ix2 e (0 : Fin 1) := by
  funext b; refine Fin.ext ?_
  match b with
  | ⟨0, _⟩ => rfl
  | ⟨1, _⟩ =>
    have h : k.val < 1 := k.isLt
    show k.val = 0
    omega

/-- THE GATHER BY ROWS READ AT `(e, c)`: the operand at row `idx[e, 0]`, read signed and clamped into `[0, N − 1]`,
    and column `c`. The operand index is, per axis, clamped start plus batching coordinate plus offset coordinate:
    on axis 0 (collapsed, named by the index component) the clamped start `min idx[e, 0] (N − 1)` alone; on axis 1
    (the only kept axis, named by no component, so start `0`, and slice size `C`) the offset coordinate `c`
    alone. There are no batching axes. -/
theorem rowGather_apply {α : Type} {N M C w : Nat} (hN : 0 < N) (wf) (x : (⟨2, ![N, C]⟩ : Shape).Idx → α)
    (idx : IVec ⟨2, ![M, 1]⟩ w) (e : Fin M) (c : Fin C) :
    Host.gather (rowGatherDims N M C wf) x idx (ix2 e c) = x (ix2 (srcRow N hN idx e) c) := by
  unfold Host.gather
  congr 1
  funext a
  refine Fin.ext ?_
  match a with
  | ⟨0, _⟩ =>
    show (rowGatherDims N M C wf).start (ix2 e c) idx 0 + (rowGatherDims N M C wf).batchCoord (ix2 e c) 0 +
      (rowGatherDims N M C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    rw [rowGather_siIdx]
    rfl
  | ⟨1, _⟩ =>
    show (rowGatherDims N M C wf).start (ix2 e c) idx 1 + (rowGatherDims N M C wf).batchCoord (ix2 e c) 1 +
      (rowGatherDims N M C wf).offCoord (ix2 e c) 1 = _
    have h1 : (1 : Fin 2) ∉ (rowGatherDims N M C wf).startIndexMap :=
      show (1 : Fin 2) ∉ [(0 : Fin 2)] by decide
    have hk : (1 : Fin 2) ∈ (rowGatherDims N M C wf).sKept := by
      rw [GatherDims.mem_sKept]; exact ⟨show (1 : Fin 2) ∉ [(0 : Fin 2)] by decide, List.not_mem_nil⟩
    rw [GatherDims.batchCoord_eq_zero _ _ _ List.not_mem_nil]
    unfold GatherDims.start
    rw [dif_neg h1]
    unfold GatherDims.offCoord
    rw [dif_pos hk]
    simp only [Nat.add_zero, Nat.zero_add]
    rfl

end Cert.Lib.RowScatter

end
-- ==== Proof.LibTwoHop.lean ====
import Mathlib.Data.EReal.Operations
import Mathlib.Algebra.BigOperators.Group.Finset.Sigma
import Mathlib.Algebra.BigOperators.Ring.Finset
import Mathlib.Tactic.Ring

/-!
# Commuting a graph propagation with a feature projection, over the extended reals

A graph propagation sends an array `v` indexed by nodes to the array whose value at a node `n`
is the sum, over the edges `e` landing on `n`, of `c e * v (src e)`.  A projection sends a
row `x n ·` of features to the single number `∑ k, x n k * w k`.  The first acts on the node
axis, the second on the feature axis, so over the real numbers they commute: it is the
interchange of two finite sums together with associativity and distributivity.

Over the extended reals `EReal = ℝ ∪ {⊥, ⊤}` multiplication does not distribute over addition
when infinities are present (for instance `⊤ * (1 + (-1)) = 0` whereas `⊤ * 1 + ⊤ * (-1)` is
`⊤ + ⊥ = ⊥`).  The law is therefore stated for data all of whose entries are real numbers.
Then each side is the coercion of a real number, and the two real numbers are equal by the
usual algebra of finite sums.
-/

open scoped BigOperators

namespace Cert.Lib.TwoHop

/-- An extended real that is a real number. -/
def IsReal (a : EReal) : Prop := ∃ r : ℝ, a = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number: `↑r + ↑s = ↑(r + s)`. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number: `↑r * ↑s = ↑(r * s)`. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of real numbers is a real number (induction on the index set, using that zero
is real and that the sum of two reals is real). -/
theorem IsReal.sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact IsReal.zero
  · intro a t ha ih h
    rw [Finset.sum_insert ha]
    exact IsReal.add (h a (Finset.mem_insert_self a t))
      (ih fun i hi => h i (Finset.mem_insert_of_mem hi))

/-- An extended real is a real number exactly when it is neither `⊤` nor `⊥`. -/
theorem isReal_iff (a : EReal) : IsReal a ↔ a ≠ ⊤ ∧ a ≠ ⊥ := by
  constructor
  · rintro ⟨r, rfl⟩
    exact ⟨EReal.coe_ne_top r, EReal.coe_ne_bot r⟩
  · rintro ⟨h1, h2⟩
    exact ⟨a.toReal, (EReal.coe_toReal h1 h2).symm⟩

/-- |a| < ⊤, in the form max a (−a) < ⊤, says a is real. -/
theorem isReal_of_abs_lt_top {a : EReal} (h : max a (-a) < ⊤) : IsReal a := by
  rw [max_lt_iff] at h
  refine (isReal_iff a).2 ⟨ne_of_lt h.1, ?_⟩
  intro hb
  have h2 : -a < ⊤ := h.2
  rw [hb, EReal.neg_bot] at h2
  exact lt_irrefl _ h2

/-- The coercion `ℝ → EReal` commutes with finite sums (induction on the index set, using
`↑0 = 0` and `↑(r + s) = ↑r + ↑s`). -/
theorem coe_finset_sum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty]
    exact EReal.coe_zero
  · intro a t ha ih
    rw [Finset.sum_insert ha, Finset.sum_insert ha, EReal.coe_add, ih]

/-- The real-number form of the one-hop law: interchange the two finite sums and reassociate
the products, `(∑ e, c e * x (src e) k) * w k` summed over `k` equals
`c e * ∑ k, x (src e) k * w k` summed over `e`. -/
theorem one_hop_real {ι ν δ : Type*} [Fintype δ] (T : Finset ι) (src : ι → ν) (c : ι → ℝ)
    (x : ν → δ → ℝ) (w : δ → ℝ) :
    ∑ k, (∑ e ∈ T, c e * x (src e) k) * w k = ∑ e ∈ T, c e * (∑ k, x (src e) k * w k) := by
  simp only [Finset.sum_mul, Finset.mul_sum]
  rw [Finset.sum_comm]
  refine Finset.sum_congr rfl fun e _ => Finset.sum_congr rfl fun k _ => ?_
  ring

/-- ONE HOP: the projection of a propagated array is the propagation of the projected array. -/
theorem one_hop {ι ν δ : Type*} [Fintype δ] (S : ν → Finset ι) (src : ι → ν) (c : ι → EReal)
    (x : ν → δ → EReal) (w : δ → EReal)
    (hc : ∀ e, IsReal (c e)) (hx : ∀ n k, IsReal (x n k)) (hw : ∀ k, IsReal (w k)) (n : ν) :
    ∑ k, (∑ e ∈ S n, c e * x (src e) k) * w k = ∑ e ∈ S n, c e * (∑ k, x (src e) k * w k) := by
  -- name the real numbers behind the entries
  choose cr hcr using hc
  choose xr hxr using hx
  choose wr hwr using hw
  -- the identity between real numbers, transported along the coercion
  have key := congrArg (fun r : ℝ => (r : EReal)) (one_hop_real (S n) src cr xr wr)
  -- push the coercion through the sums and products: both sides become the stated ones
  simp only [coe_finset_sum, EReal.coe_mul] at key
  simp only [hcr, hxr, hwr]
  exact key

/-- TWO HOPS: the same law through two propagations. -/
theorem two_hop {ι ν δ : Type*} [Fintype δ] (S : ν → Finset ι) (src : ι → ν) (c : ι → EReal)
    (x : ν → δ → EReal) (w : δ → EReal)
    (hc : ∀ e, IsReal (c e)) (hx : ∀ n k, IsReal (x n k)) (hw : ∀ k, IsReal (w k)) (n : ν) :
    ∑ k, (∑ e ∈ S n, c e * (∑ e' ∈ S (src e), c e' * x (src e') k)) * w k
      = ∑ e ∈ S n, c e * (∑ e' ∈ S (src e), c e' * (∑ k, x (src e') k * w k)) := by
  -- the once-propagated array is again real-valued
  have hy : ∀ m k, IsReal (∑ e' ∈ S m, c e' * x (src e') k) := fun m k =>
    IsReal.sum _ _ fun e' _ => IsReal.mul (hc e') (hx (src e') k)
  -- outer hop: apply the one-hop law to the once-propagated array
  have h1 := one_hop S src c (fun m k => ∑ e' ∈ S m, c e' * x (src e') k) w hc hy hw n
  refine h1.trans ?_
  -- inner hop: at each source node apply the one-hop law to the original array
  refine Finset.sum_congr rfl fun e _ => ?_
  rw [one_hop S src c x w hc hx hw (src e)]

end Cert.Lib.TwoHop
-- ==== Proof.Hops.lean ====
/-
  The common vocabulary of the two programs. Both compute, from the edge list `ei : [2, 600000]` with the 100000
  self loops appended (700000 edges in all), a normalisation weight per edge, and propagate a signal twice along
  the edges: an edge `e` reads the signal at its source row (its first endpoint, wrapped when negative and then
  clamped into the array) and adds `weight e · signal` into its target row (its second endpoint; an edge whose
  target lies outside the array adds nothing). The kernel propagates the projected column x·Wᵀ, the reference
  propagates all 128 feature columns and projects at the end. Named here: the set of edges landing on a node, the
  source node of an edge, the weight of an edge, and the common result
    G(n) = Σ_{e → n} c e · Σ_{e' → src e} c e' · (Σ_k x(src e', k) · W(0, k)) + b.
-/
import proofs.«178427_j33346126086445_2_alg».proof.Proof.RefRead
import proofs.«178427_j33346126086445_2_alg».proof.Proof.LibRowScatter
import proofs.«178427_j33346126086445_2_alg».proof.Proof.LibTwoHop

noncomputable section

open scoped BigOperators

namespace Cert.Hops

open Cert.ReferenceIdeal Cert.ReferenceIdeal.ReadP Idealize.ShloMosaic Idealize.ShloMosaic.ValueIdx Cert.Lib.RowScatter

/-- The edges' target rows, as the column of start indices the scatters read. -/
def colIdx (ei : IVec S2x600000 32) : IVec S700000x1 32 := val_main_v42 (F := Ideal) ei
/-- The edges' source rows (negative ones wrapped by 100000), as the column of start indices the gathers read. -/
def rowIdx (ei : IVec S2x600000 32) : IVec S700000x1 32 := val_main_v37 (F := Ideal) ei
/-- The edges that land on node `n`. -/
def into (ei : IVec S2x600000 32) (n : Fin 100000) : Finset (Fin 700000) := landing (colIdx ei) n.val
/-- The node an edge reads. -/
def src (ei : IVec S2x600000 32) (e : Fin 700000) : Fin 100000 := srcRow 100000 (by decide) (rowIdx ei) e
/-- The normalisation weight of an edge: deg^(-1/2) at its source times deg^(-1/2) at its target. -/
def wt (ei : IVec S2x600000 32) (e : Fin 700000) : EReal := val_main_v30 (F := Ideal) ei (ix1 e)

/-- The common result at node `n`. -/
def G (x : S100000x128.Idx → EReal) (ei : IVec S2x600000 32) (w : S1x128.Idx → EReal) (b : S1.Idx → EReal) (n : Fin 100000) : EReal :=
  (∑ e ∈ into ei n, wt ei e * (∑ e' ∈ into ei (src ei e), wt ei e' * (∑ k : Fin 128, x (ix2 (src ei e') k) * w (ix2 (0 : Fin 1) k))))
    + b (ix1 (0 : Fin 1))

end Cert.Hops

end
-- ==== Proof.RefValue.lean ====
/-
  THE REFERENCE PROGRAM'S RESULT READ AT A NODE.

  The reference propagates the 128 feature columns of `x` twice along the edges and then projects onto `W`:
    h1(n, k) = Σ_{e → n} c e · x(src e, k),   h2(n, k) = Σ_{e → n} c e · h1(src e, k),   out(n) = Σ_k h2(n, k) · W(0, k) + b.
  Each propagation is three stages of the program: a gather by rows at the edges' source rows, an elementwise
  product with the edge weights broadcast along the columns, and a scatter-add by rows into an array of zeros at the
  edges' target rows. The two propagations use the same index arrays and the same weights (the program builds each of
  them twice, from the same terms), so one lemma about a propagation stage serves both. The tail is a contraction over
  the 128 columns with the transposed `W`, the addition of the broadcast bias and a reshape. Nothing here needs
  the data to be finite: every step reads a stage at an index.
-/
import proofs.«178427_j33346126086445_2_alg».proof.Proof.Hops
import Idealize.ShloMosaic.Lib.ValueIdx
import Idealize.ShloMosaic.Lib.Pipeline.Value
import Idealize.ShloMosaic.PureOps.Ideal.Laws

set_option maxRecDepth 16384

noncomputable section

open scoped BigOperators

namespace Cert.RefValue

open Cert.ReferenceIdeal Cert.ReferenceIdeal.ReadP Cert.Hops Cert.Lib.RowScatter Idealize.ShloMosaic Idealize.ShloMosaic.ValueIdx

/-! ## The dimension numbers and the repeated arrays -/

/-- The program's gather dimension numbers are the gather by rows of a `[100000, 128]` operand at `[700000, 1]`
    start indices: the two records have the same fields. -/
theorem gatherDims_eq :
    gather_S100000x128_S700000x1_S700000x128_1_0_n_n_0_1_1128
      = rowGatherDims 100000 700000 128 Facts₀.gather_S100000x128_S700000x1_S700000x128_1_0_n_n_0_1_1128_wf := rfl

/-- The program's scatter dimension numbers are the scatter by rows of `[700000, 128]` updates into a
    `[100000, 128]` operand at `[700000, 1]` scatter indices: the two records have the same fields. -/
theorem scatterDims_eq :
    scatter_S100000x128_S700000x1_S700000x128_1_0_0_1
      = rowScatterDims 100000 700000 128 Facts₀.scatter_S100000x128_S700000x1_S700000x128_1_0_0_1_wf := rfl

/-- The second scatter's index array is the first's: both are the column of the edges' target rows. -/
theorem v55_eq (ei : IVec S2x600000 32) : val_main_v55 (F := Ideal) ei = colIdx ei := rfl

/-- The second gather's index array is the first's: both are the column of the edges' source rows, a negative one
    wrapped by 100000 (the same comparison with 0, the same addition of 100000, the same select). -/
theorem v50_eq (ei : IVec S2x600000 32) : val_main_v50 (F := Ideal) ei = rowIdx ei := rfl

/-- The second propagation's column of edge weights is the first's. -/
theorem v44_eq (ei : IVec S2x600000 32) : val_main_v44 (F := Ideal) ei = val_main_v31 (F := Ideal) ei := rfl

/-- The first scatter's operand is zero at every index: the broadcast of the word `0x00000000`, which is the
    extended real `0`. -/
theorem zeros41 (i : S100000x128.Idx) : val_main_v41 (F := Ideal) i = (0 : EReal) := by
  rw [val_main_v41_apply, val_main_cst_8_apply]
  exact Ideal.ofBits_zero_f32

/-- The second scatter's operand is zero at every index, likewise. -/
theorem zeros54 (i : S100000x128.Idx) : val_main_v54 (F := Ideal) i = (0 : EReal) := by
  rw [val_main_v54_apply, val_main_cst_11_apply]
  exact Ideal.ofBits_zero_f32

/-- The first propagation's weights broadcast along the columns: at `(e, k)` the weight of edge `e`, whatever
    the column (the broadcast reads `(e, 0)` of the weights' column, which reads `e` of the weights). -/
theorem nb39 (ei : IVec S2x600000 32) (e : Fin 700000) (k : Fin 128) :
    val_main_v39 (F := Ideal) ei (ix2 e k) = wt ei e := by
  rw [val_main_v39_apply, val_main_v31_apply]
  unfold wt
  congr 1
  funext a
  match a with
  | ⟨0, _⟩ => rfl

/-- The second propagation's weights broadcast along the columns: at `(e, k)` the weight of edge `e` again. -/
theorem nb52 (ei : IVec S2x600000 32) (e : Fin 700000) (k : Fin 128) :
    val_main_v52 (F := Ideal) ei (ix2 e k) = wt ei e := by
  rw [val_main_v52_apply, val_main_v44_apply]
  unfold wt
  congr 1
  funext a
  match a with
  | ⟨0, _⟩ => rfl

/-! ## One propagation -/

/-- ONE PROPAGATION READ AT `(n, k)`. Gather the rows of `y` at the edges' source rows, multiply row `e` by
    the weight of edge `e`, and scatter-add the rows into zeros at the edges' target rows: the result at
    `(n, k)` is the sum, over the edges `e` landing on `n`, of `c e · y(src e, k)`. The scatter-add read at an
    index is the operand (zero) plus the sum over the landing rows of the update; the update at `(e, k)` is the
    product of the broadcast weight and the gather, and the gather read at `(e, k)` is `y` at the clamped source
    row. The arrays enter through what is known of them: the operand is zero everywhere, the index arrays are the
    target and source columns, the factor is the weight at every column. -/
theorem hop (ei : IVec S2x600000 32) (z : FVec Ideal S100000x128 .f32) (hz : ∀ i, z i = (0 : EReal))
    (ci : IVec S700000x1 32) (hci : ci = colIdx ei) (ri : IVec S700000x1 32) (hri : ri = rowIdx ei)
    (nb : FVec Ideal S700000x128 .f32) (hnb : ∀ e k, nb (ix2 e k) = wt ei e)
    (y : FVec Ideal S100000x128 .f32) (n : Fin 100000) (k : Fin 128) :
    Host.scatterAdd (F := Ideal) scatter_S100000x128_S700000x1_S700000x128_1_0_0_1 z ci
        (mulf nb (Host.gather gather_S100000x128_S700000x1_S700000x128_1_0_n_n_0_1_1128 y ri)) (ix2 n k)
      = ∑ e ∈ into ei n, wt ei e * y (ix2 (src ei e) k) := by
  subst hci hri
  rw [scatterDims_eq, rowScatterAdd_apply, hz, zero_add]
  refine Finset.sum_congr rfl fun e _ => ?_
  rw [mulf_apply, hnb, gatherDims_eq, rowGather_apply (hN := by decide)]
  rfl

/-- THE FIRST PROPAGATION: `h1(n, k) = Σ_{e → n} c e · x(src e, k)`. -/
theorem v43_apply (x : FVec Ideal S100000x128 .f32) (ei : IVec S2x600000 32) (n : Fin 100000) (k : Fin 128) :
    val_main_v43 (F := Ideal) x ei (ix2 n k) = ∑ e ∈ into ei n, wt ei e * x (ix2 (src ei e) k) := by
  unfold val_main_v43 val_main_v40 val_main_v38
  exact hop ei _ zeros41 _ rfl _ rfl _ (nb39 ei) x n k

/-- THE SECOND PROPAGATION, of the first's result: `h2(n, k) = Σ_{e → n} c e · h1(src e, k)`. -/
theorem v56_apply (x : FVec Ideal S100000x128 .f32) (ei : IVec S2x600000 32) (n : Fin 100000) (k : Fin 128) :
    val_main_v56 (F := Ideal) x ei (ix2 n k)
      = ∑ e ∈ into ei n, wt ei e * val_main_v43 (F := Ideal) x ei (ix2 (src ei e) k) := by
  unfold val_main_v56 val_main_v53 val_main_v51
  exact hop ei _ zeros54 _ (v55_eq ei) _ (v50_eq ei) _ (nb52 ei) (val_main_v43 (F := Ideal) x ei) n k

/-! ## The result -/

/-- THE REFERENCE'S RESULT AT NODE `n`: the twice-propagated features contracted with `W` over the 128 columns,
    plus the bias, `out(n) = Σ_k (Σ_{e → n} c e · Σ_{e' → src e} c e' · x(src e', k)) · W(0, k) + b`. The reshape reads
    `(n, 0)` of the sum; the sum's first term is the contraction, whose left factor at `k` is `h2(n, k)` and
    whose right factor is the transpose of `W` at `(k, 0)`, that is `W(0, k)`; its second term is the bias
    broadcast twice, which reads `b(0)`. -/
theorem ref_apply (x : S100000x128.Idx → EReal) (ei : IVec S2x600000 32) (w : S1x128.Idx → EReal) (b : S1.Idx → EReal)
    (n : Fin 100000) :
    val_main_v62 (F := Ideal) x ei w b (ix1 n)
      = (∑ k : Fin 128, (∑ e ∈ into ei n, wt ei e * (∑ e' ∈ into ei (src ei e), wt ei e' * x (ix2 (src ei e') k))) * w (ix2 (0 : Fin 1) k))
        + b (ix1 (0 : Fin 1)) := by
  rw [val_main_v62_apply, val_main_v61_apply, val_main_v58_apply, val_main_v60_apply, val_main_v59_apply]
  show (∑ k : Fin 128, _) + b _ = _
  refine congrArg₂ (· + ·) ?_ ?_
  · refine Finset.sum_congr rfl fun k _ => ?_
    -- the contraction's left index at node n and column k is (n, k): the reshape's row n / 1 is n
    have hl : lidx_main_v58 (idx_main_v62 (ix1 n)) k = ix2 n k := by
      funext a
      match a with
      | ⟨0, _⟩ => exact Fin.ext (Nat.div_one _)
      | ⟨1, _⟩ => rfl
    -- the contraction's right index (k, 0), transposed, is (0, k)
    have hr : idx_main_v57 (ridx_main_v58 (idx_main_v62 (ix1 n)) k) = ix2 (0 : Fin 1) k := by
      funext a
      match a with
      | ⟨0, _⟩ => rfl
      | ⟨1, _⟩ => rfl
    rw [hl, val_main_v57_apply, hr, v56_apply]
    refine congrArg (· * w (ix2 (0 : Fin 1) k)) ?_
    refine Finset.sum_congr rfl fun e _ => ?_
    rw [v43_apply]
  · -- the bias, broadcast to [1, 1] and then to [100000, 1], reads b(0)
    refine congrArg b ?_
    funext a
    match a with
    | ⟨0, _⟩ => rfl

end Cert.RefValue

end
-- ==== Proof.LibRealIdeal.lean ====
import Idealize.ShloMosaic.PureOps.Ideal
import Idealize.ShloMosaic.Lib.ValueIdx
import proofs.«178427_j33346126086445_2_alg».proof.Proof.LibTwoHop

/-!
# Real-valuedness of a few array operations over the extended reals

When every float is read as an extended real, an array is a function from its index set to
`EReal`.  This file records which of the operations met here keep an array real-valued (every
entry the coercion of a real number), and how a finiteness test `|a| < +∞` is read as
"`a` is a real number":

* the words of `0.0` and `1.0` denote the real numbers 0 and 1;
* an accumulating scatter is, entry by entry, an operand entry plus a finite sum of update
  entries, hence real when operand and updates are;
* a gather only moves entries;
* `deg ↦ where(deg > 0, deg^(-1/2), 0)` is real on real `deg`: for `deg > 0` the reciprocal
  square root is the real number `(√deg)⁻¹`, and otherwise the guard selects `0`;
* `max a (-a) < ⊤` excludes `a = ⊤` and `a = ⊥`, so `a` is a real number.
-/

open scoped BigOperators

noncomputable section

namespace Cert.Lib.RealIdeal

open Idealize.ShloMosaic Cert.Lib.TwoHop

/-- The word of `+0.0` denotes the extended real `0`. -/
theorem ofBits_zero_word : Ideal.ofBits .f32 0x00000000#32 = 0 := by
  simp [Ideal.ofBits, Ideal.ieee]

/-- The word of `+∞` (all-ones exponent, zero significand, sign `+`) denotes `⊤`. -/
theorem ofBits_inf_word : Ideal.ofBits .f32 0x7F800000#32 = ⊤ := by
  simp [Ideal.ofBits, Ideal.ieee]

/-- The word of `1.0` (exponent field equal to the bias, zero significand) denotes `1`. -/
theorem ofBits_one_word : Ideal.ofBits .f32 0x3F800000#32 = 1 := by
  simp [Ideal.ofBits, Ideal.ieee, -EReal.coe_mul]; norm_num

/-- A one-bit word built from a decidable proposition is `1` exactly when the proposition
holds. -/
theorem ofBool_decide_eq_one (p : Prop) [Decidable p] : BitVec.ofBool (decide p) = 1#1 ↔ p := by
  by_cases hp : p <;> simp [hp]

/-- The float zero is a real number. -/
theorem isReal_zero_word : IsReal (Ideal.ofBits .f32 0x00000000#32) := by
  rw [ofBits_zero_word]; exact IsReal.zero

/-- The float one is a real number. -/
theorem isReal_one_word : IsReal (Ideal.ofBits .f32 0x3F800000#32) := by
  rw [ofBits_one_word]; exact ⟨1, EReal.coe_one.symm⟩

/-- a sum-scatter of real updates into a real operand is real (any dimension numbers): each
result entry is the operand entry plus the finite sum of the update entries landing on it. -/
theorem isReal_scatterAdd {s si su : Shape} {w : Nat} {φ : FTy} (d : ScatterDims s si su)
    (x : FVec Ideal s φ) (idx : IVec si w) (upd : FVec Ideal su φ)
    (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact IsReal.add (hx i) (IsReal.sum _ _ fun j _ => hu j)

/-- a gather only moves elements: each result entry is one of the operand's entries. -/
theorem isReal_gather {s si t : Shape} {w : Nat} (d : GatherDims s si t) (x : s.Idx → EReal)
    (idx : IVec si w) (hx : ∀ i, IsReal (x i)) (j : t.Idx) : IsReal (Host.gather d x idx j) :=
  hx (d.operandIdx j idx)

/-- deg ↦ where(deg > 0, deg^(-1/2), 0) is real on reals: rsqrt of a positive real is a real,
and elsewhere the guard picks 0. -/
theorem isReal_guarded_rsqrt {s : Shape} (deg z0 z1 : FVec Ideal s .f32) (hdeg : ∀ i, IsReal (deg i))
    (h0 : ∀ i, z0 i = Ideal.ofBits .f32 0x00000000#32)
    (h1 : ∀ i, z1 i = Ideal.ofBits .f32 0x00000000#32) (i : s.Idx) :
    IsReal (select (cmpf (F := Ideal) (φ := .f32) .ogt deg z0) (Host.rsqrt (F := Ideal) deg) z1 i) := by
  obtain ⟨r, hr⟩ := hdeg i
  -- read the three operations at the index `i`
  show IsReal (if BitVec.ofBool (decide (z0 i < deg i)) = 1#1 then Ideal.rsqrt (deg i) else z1 i)
  rw [h0 i, h1 i, ofBits_zero_word, hr]
  by_cases hpos : 0 < r
  · -- a positive real: the guard holds and the reciprocal square root is `(√r)⁻¹`
    rw [if_pos ((ofBool_decide_eq_one _).2 (EReal.coe_pos.2 hpos)), Ideal.rsqrt_coe, if_neg (not_lt.2 hpos.le), if_neg hpos.ne']
    exact IsReal.coe _
  · -- otherwise the guard fails and the value is `0`
    rw [if_neg (fun h => hpos (EReal.coe_pos.1 ((ofBool_decide_eq_one _).1 h)))]
    exact IsReal.zero

/-- the finiteness test |a| < +inf (0x7F800000 is +inf) says a is real. -/
theorem isReal_of_abs_lt_inf {s : Shape} (a inf : FVec Ideal s .f32)
    (hinf : ∀ i, inf i = Ideal.ofBits .f32 0x7F800000#32) (i : s.Idx)
    (h : cmpf (F := Ideal) (φ := .f32) .olt (Host.absf (F := Ideal) a) inf i = 1#1) : IsReal (a i) := by
  -- read the comparison at the index `i`: it is the bit of `max (a i) (-(a i)) < inf i`
  have h' : BitVec.ofBool (decide (max (a i) (-(a i)) < inf i)) = 1#1 := h
  rw [hinf i, ofBits_inf_word, ofBool_decide_eq_one] at h'
  exact isReal_of_abs_lt_top h'

end Cert.Lib.RealIdeal

end
-- ==== Proof.NormReal.lean ====
import proofs.«178427_j33346126086445_2_alg».proof.Proof.Hops
import proofs.«178427_j33346126086445_2_alg».proof.Proof.LibRealIdeal

/-!
# The edge weights are real numbers

The normalisation weight of an edge is `dis[row] * 1 * dis[col]`, where
`dis = where(deg > 0, deg^(-1/2), 0)` and `deg` is the number of edges landing on each node,
computed as a sum-scatter of ones into zeros.

* `deg` is, at each node, `0` plus a finite sum of ones: a real number.
* `dis` is real on real `deg`: where `deg > 0` the reciprocal square root is the real number
  `(√deg)⁻¹`, and elsewhere the guard selects `0`.
* a gather only moves entries, so `dis[row]` and `dis[col]` are real; the product of real
  numbers is real, so the weight is real.
-/

noncomputable section

namespace Cert.NormReal

open Cert.ReferenceIdeal Cert.ReferenceIdeal.ReadP Cert.Hops Cert.Lib.TwoHop Cert.Lib.RealIdeal
  Idealize.ShloMosaic

/-- The degree of a node is a real number: it is `0` plus a finite sum of ones. -/
theorem deg_real (ei : IVec S2x600000 32) (i : S100000.Idx) :
    IsReal (val_main_v10 (F := Ideal) ei i) := by
  unfold val_main_v10
  -- the operand is the splat of 0 and the updates are the splat of 1
  exact isReal_scatterAdd _ _ _ _ (fun _ => isReal_zero_word) (fun _ => isReal_one_word) i

/-- `where(deg > 0, deg^(-1/2), 0)` is a real number at every node, the degree being real. -/
theorem dis_real (ei : IVec S2x600000 32) (i : S100000.Idx) :
    IsReal (val_main_v14 (F := Ideal) ei i) := by
  unfold val_main_v14 val_main_v12 val_main_v13
  -- both the comparand of the guard and the alternative value are the splat of 0
  exact isReal_guarded_rsqrt (s := S100000) (val_main_v10 (F := Ideal) ei) (val_main_v11 (F := Ideal))
    (val_main_call0_v1 (F := Ideal)) (deg_real ei) (fun _ => rfl) (fun _ => rfl) i

/-- The weight array `dis[row] * 1 * dis[col]` is real at every edge: gathers only move the real
entries of `dis`, and a product of real numbers is real. -/
theorem norm_real (ei : IVec S2x600000 32) (i : S700000.Idx) :
    IsReal (val_main_v30 (F := Ideal) ei i) := by
  rw [val_main_v30_apply, val_main_v22_apply]
  show IsReal ((val_main_v21 (F := Ideal) ei i * val_main_v7 (F := Ideal) i) * val_main_v29 (F := Ideal) ei i)
  refine IsReal.mul (IsReal.mul ?_ ?_) ?_
  · unfold val_main_v21
    exact isReal_gather _ _ _ (dis_real ei) i
  · -- the splat of 1
    exact isReal_one_word
  · unfold val_main_v29
    exact isReal_gather _ _ _ (dis_real ei) i

/-- The weight of an edge is a real number. -/
theorem wt_real (ei : IVec S2x600000 32) (e : Fin 700000) : IsReal (wt ei e) := by
  unfold wt
  exact norm_real ei _

end Cert.NormReal

end
-- ==== Proof.HopsLaw.lean ====
import proofs.«178427_j33346126086445_2_alg».proof.Proof.NormReal

/-!
# The commutation law on the shared vocabulary

With `into ei n` the set of edges landing on node `n`, `src ei e` the node an edge reads and
`wt ei e` its weight, propagating all 128 feature columns twice along the edges and then
projecting onto `w` gives the same number as projecting first and propagating the projected
column twice.  The weights are real numbers, and the features and the projection vector are
assumed real, so the interchange of the finite sums is the one valid over the real numbers.
-/

noncomputable section

open scoped BigOperators

namespace Cert.HopsLaw

open Cert.ReferenceIdeal Cert.Hops Cert.NormReal Cert.Lib.TwoHop Idealize.ShloMosaic
  Idealize.ShloMosaic.ValueIdx

/-- Projecting after two propagations is propagating the projection twice, for real features and weights. -/
theorem twoHop_G (x : S100000x128.Idx → EReal) (ei : IVec S2x600000 32) (w : S1x128.Idx → EReal)
    (b : S1.Idx → EReal) (hx : ∀ i, IsReal (x i)) (hw : ∀ i, IsReal (w i)) (n : Fin 100000) :
    (∑ k : Fin 128, (∑ e ∈ into ei n, wt ei e * (∑ e' ∈ into ei (src ei e), wt ei e' * x (ix2 (src ei e') k)))
        * w (ix2 (0 : Fin 1) k))
      + b (ix1 (0 : Fin 1)) = G x ei w b n := by
  -- the two-hop law for the sums; the bias is then added on both sides
  have key := two_hop (S := into ei) (src := src ei) (c := wt ei) (x := fun m k => x (ix2 m k))
    (w := fun k => w (ix2 (0 : Fin 1) k)) (wt_real ei) (fun m k => hx (ix2 m k))
    (fun k => hw (ix2 (0 : Fin 1) k)) n
  exact congrArg (fun t : EReal => t + b (ix1 (0 : Fin 1))) key

end Cert.HopsLaw

end
-- ==== Proof.PreReal.lean ====
import proofs.«178427_j33346126086445_2_alg».proof.Pre_finite_inputs
import proofs.«178427_j33346126086445_2_alg».proof.Proof.Gen.Pre_finite_inputs
import Idealize.ShloMosaic.Lib.ReduceAll
import proofs.«178427_j33346126086445_2_alg».proof.Proof.LibRealIdeal

/-!
# The finiteness precondition, read as real-valuedness

The precondition is the conjunction of three tests `all (|v| < +∞)`, one for each float input
`v`.  Each `all` is a reduction by `and` of the array of comparison bits over every axis, started
from the bit 1, so its value 1 says that every comparison bit is 1; and a comparison bit
`|v i| < +∞` equal to 1 says that the extended real `v i` is neither `⊤` nor `⊥`, that is, a
real number.  Hence the precondition says that every entry of the three float inputs is a real
number.
-/

noncomputable section

namespace Cert.PreReal

open Idealize.ShloMosaic Cert.Lib.TwoHop Cert.Lib.RealIdeal

/-- If the finiteness precondition holds then every entry of each of the three float inputs is
a real number: the conjunction gives the three `all` tests, each `all` gives its comparison bit
at every index, and the bit `|v i| < +∞` says `v i` is real. -/
theorem inputs_real [Cert.Pre_finite_inputs.Facts]
    (x : FVec Ideal Cert.Pre_finite_inputs.S100000x128 .f32) (ei : IVec Cert.Pre_finite_inputs.S2x600000 32)
    (w : FVec Ideal Cert.Pre_finite_inputs.S1x128 .f32) (b : FVec Ideal Cert.Pre_finite_inputs.S1 .f32)
    (h : Cert.Pre_finite_inputs.fn (F := Ideal) x ei w b = fun _ => 1#1) :
    (∀ i, IsReal (x i)) ∧ (∀ i, IsReal (w i)) ∧ (∀ i, IsReal (b i)) := by
  -- the scalar shape has a single index
  haveI : Subsingleton Cert.Pre_finite_inputs.S_.Idx := ⟨fun a b => funext fun d => d.elim0⟩
  -- the precondition's one bit
  have h0 := congrFun h ValueIdx.ix0
  dsimp only [Cert.Pre_finite_inputs.fn] at h0
  -- split the conjunction of the three tests
  obtain ⟨h12, h3⟩ := IntOp.andi_eq_one.1 h0
  obtain ⟨h1, h2⟩ := IntOp.andi_eq_one.1 h12
  refine ⟨fun i => ?_, fun i => ?_, fun i => ?_⟩
  · exact isReal_of_abs_lt_inf x _ (fun _ => rfl) i (Host.reduce_andi_all _ _ _ _ _ h1 i)
  · exact isReal_of_abs_lt_inf w _ (fun _ => rfl) i (Host.reduce_andi_all _ _ _ _ _ h2 i)
  · exact isReal_of_abs_lt_inf b _ (fun _ => rfl) i (Host.reduce_andi_all _ _ _ _ _ h3 i)

end Cert.PreReal

end
-- ==== Proof.Project.lean ====
/-
  The region of the idealized kernel, read as a value. The kernel's one grid launch projects the node features onto the
  weight row: grid point `t` (of 20) loads rows [5000·t, 5000·t + 5000) of `x : [100000, 128]` and the whole
  `W : [1, 128]`, and stores the [5000, 1] product of the block with the transposed row. At the ideal values the
  changes of float format are the identity and the matrix unit's product into a zero accumulator is the plain
  sum, so entry (p, 0) of the stored block is Σ_k x(5000·t + p, k) · W(0, k). The twenty blocks tile the
  [100000, 1] result, so after the region that array is `rowDot x W`: row n holds Σ_k x(n, k) · W(0, k).
-/
import proofs.«178427_j33346126086445_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Project

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The product of every row of `x` with the weight row `w`: row `n` ↦ Σ_k x(n, k) · w(0, k), as a column. -/
def rowDot (x : S100000x128.Idx → EReal) (w : S1x128.Idx → EReal) : S100000x1.Idx → EReal :=
  fun i => ∑ k : Fin 128, x (ix2 (⟨(i 0).val, idx2_lt0 i⟩ : Fin 100000) k) * w (ix2 (0 : Fin 1) k)

theorem rowDot_apply (x : S100000x128.Idx → EReal) (w : S1x128.Idx → EReal) (n : Fin 100000) (q : Fin 1) :
    rowDot x w (ix2 n q) = ∑ k : Fin 128, x (ix2 n k) * w (ix2 (0 : Fin 1) k) := rfl

/-- The body's dimension numbers: a plain [5000,128] × [128,1] product, one contracted axis of extent 128. -/
abbrev D := dot_S5000x128_S128x1_S5000x1_1_0_0_1_n_n

theorem lhs0 (j : S5000x1.Idx) (q : D.contr.Idx) : (D.lhsIdx j q 0).val = (j 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (j : S5000x1.Idx) (q : D.contr.Idx) : (D.lhsIdx j q 1).val = (q ⟨0, by decide⟩).val :=
  D.lhsIdx_val_of_single rfl j q
theorem rhs0 (j : S5000x1.Idx) (q : D.contr.Idx) : (D.rhsIdx j q 0).val = (q ⟨0, by decide⟩).val :=
  D.rhsIdx_val_of_single rfl j q
theorem rhs1 (j : S5000x1.Idx) (q : D.contr.Idx) : (D.rhsIdx j q 1).val = (j 1).val := by
  unfold DotDims.rhsIdx
  rw [dif_neg (show ¬(1 : Fin S128x1.rank) ∈ D.rhsBatch by decide), dif_pos (show (1 : Fin S128x1.rank) ∈ D.rhsNonContracting by decide)]
  rfl

/-- THE PAYLOAD AT AN INDEX: entry (p, q) of the stored block is the sum over the 128 features of the loaded row's
    entry times the weight row's. -/
theorem pay_apply (v0 : FVec Ideal S5000x128 .f32) (v2 : FVec Ideal S1x128 .f32) (p : Fin 5000) (q : Fin 1) :
    k0_pay1 (F := Ideal) v0 v2 (ix2 p q) = ∑ k : Fin 128, v0 (ix2 p k) * v2 (ix2 (0 : Fin 1) k) := by
  unfold k0_pay1
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : (D.rhsIdx (ix2 p q) ((contrEquiv1 D 128 rfl rfl).symm k) 0).val = k.val := (rhs0 _ _).trans hk
  rw [el]
  congr 1
  refine transpose_apply _ _ _ _ (ix2 (0 : Fin 1) k) (fun b => ?_)
  match b with
  | ⟨0, _⟩ => exact er.symm
  | ⟨1, _⟩ =>
    show (0 : Nat) = (D.rhsIdx (ix2 p q) ((contrEquiv1 D 128 rfl rfl).symm k) 1).val
    rw [rhs1]
    show (0 : Nat) = q.val
    have := q.isLt; omega

/-- The same at any index of the block. -/
theorem pay_apply' (v0 : FVec Ideal S5000x128 .f32) (v2 : FVec Ideal S1x128 .f32) (j : S5000x1.Idx) :
    k0_pay1 (F := Ideal) v0 v2 j = ∑ k : Fin 128, v0 (ix2 (⟨(j 0).val, idx2_lt0 j⟩ : Fin 5000) k) * v2 (ix2 (0 : Fin 1) k) := by
  obtain ⟨p, q, rfl⟩ : ∃ (p : Fin 5000) (q : Fin 1), j = ix2 p q := ⟨j 0, j 1, eq_ix2 j⟩
  exact pay_apply v0 v2 p q

end Cert.KernelIdeal.Project

end
-- ==== Proof.ProjectArr.lean ====
/-
  From the blocks to the array. Grid point `t` writes back block `t` (rows [5000·t, 5000·t + 5000)) of the [100000, 1]
  result; the block of `x` it loaded is rows [5000·t, 5000·t + 5000) as well and the weight row's block is the whole row, so
  what it writes is the restriction of `rowDot x W` to its rows. Row `n` lies in the block of point `n / 5000`: the
  twenty blocks cover the array, which therefore ends holding `rowDot x W`.
-/
import proofs.«178427_j33346126086445_2_alg».proof.Proof.Project

set_option maxRecDepth 16384

noncomputable section

open scoped BigOperators

namespace Cert.KernelIdeal.Project

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## From the blocks to the array -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the twenty grid points: the block of `x` and the block of the result are both
    block `t` down the rows; the weight row's block does not move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A loaded entry of `x`'s block at point `t` is the array's entry 5000·t rows further down. -/
theorem blk0_apply (c : Dev nD) (t : Fin cfg0.N) (p : Fin 5000) (k : Fin 128) (r : Fin 100000) (hr : r.val = t.val * 5000 + p.val) :
    iblk m c 0 t (ix2 p k) = V m c main_arg0 (ix2 r k) := by
  obtain ⟨e0, e1, e2, e3, e4, e5⟩ := idx_facts t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight row's block is the whole row at every point. -/
theorem blk1_apply (c : Dev nD) (t : Fin cfg0.N) (k : Fin 128) :
    iblk m c 1 t (ix2 (0 : Fin 1) k) = V m c main_arg2 (ix2 (0 : Fin 1) k) := by
  obtain ⟨e0, e1, e2, e3, e4, e5⟩ := idx_facts t
  show V m c main_arg2 (((cfg0.win 1).blk t).view.emb (ix2 (0 : Fin 1) k)) = V m c main_arg2 (ix2 (0 : Fin 1) k)
  refine congrArg _ (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

/-- WHAT POINT `t` WRITES BACK is block `t` of the row products of the arrays the region finds. -/
theorem flushed_eq (c : Dev nD) (t : Fin cfg0.N) :
    (dats m 0 c).flushed 2 t = ((cfg0.win 2).blk t).view.read (Elt Ideal) (rowDot (V m c main_arg0) (V m c main_arg2)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S1x128) hz]
  obtain ⟨e0, e1, e2, e3, e4, e5⟩ := idx_facts t
  funext j
  have hj : (j 0).val < 5000 := (j 0).isLt
  refine (pay_apply' (iblk m c 0 t) (iblk m c 1 t) ((cfg0.win 2).xinj (grid0.coords t) j)).trans ?_
  show _ = rowDot (V m c main_arg0) (V m c main_arg2) (((cfg0.win 2).blk t).view.emb j)
  unfold rowDot
  refine Finset.sum_congr rfl fun k _ => ?_
  refine congrArg₂ (fun a b : EReal => a * b)
    (blk0_apply m c t (⟨(j 0).val, hj⟩ : Fin 5000) k _ (by
      show win0_2.index t (0 : Fin 2) * 5000 + 1 * (j 0).val = t.val * 5000 + (j 0).val; omega))
    (blk1_apply m c t k)

/-- An index of the result array is in point `t`'s block iff each coordinate is in the block's range on its axis. -/
theorem mem_blk (t : Fin cfg0.N) (i : S100000x1.Idx) :
    i ∈ ((cfg0.win 2).blk t).view.set ↔ ∀ a : Fin 2, win0_2.index t a * S5000x1.size a ≤ (i a).val ∧ (i a).val < win0_2.index t a * S5000x1.size a + S5000x1.size a := by
  show i ∈ ((View.whole main_v31).slice (win0_2.rect t)).set ↔ _
  rw [View.set_slice_whole, Rect.mem_set_unit]
  exact Iff.rfl

/-- THE RESULT ARRAY after the region: row `n` is in the block of point `n / 5000`, so the twenty blocks cover the array and
    it holds the row products. -/
theorem final (c : Dev nD) : (dats m 0 c).arrAt 2 cfg0.N = rowDot (V m c main_arg0) (V m c main_arg2) :=
  (dats m 0 c).arrAt_eq_of_cover 2 _ (fun t _ => flushed_eq m c t) fun i => by
    have hi0 : (i 0).val < 100000 := (i 0).isLt
    have hi1 : (i 1).val < 1 := (i 1).isLt
    have hN : cfg0.N = 20 := N_0
    refine ⟨⟨(i 0).val / 5000, by omega⟩, flush0_2 _, ?_⟩
    rw [mem_blk]
    obtain ⟨e0, e1, e2, e3, e4, e5⟩ := idx_facts ⟨(i 0).val / 5000, by omega⟩
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 1 ≤ (i 1).val ∧ (i 1).val < win0_2.index _ (1 : Fin 2) * 1 + 1
      rw [e5]; omega

end Cert.KernelIdeal.Project

end
-- ==== Proof.TailFn.lean ====
/-
  The host operations the idealized kernel runs after its region, as ONE function of the five arrays they read: the
  projected column `y : [100000, 1]` the region left, the edges' target rows `col`, the edge weights `nrm`, the edges'
  source rows `row` (before wrapping) and the bias `b`. Twice: wrap the negative source rows by 100000, gather `y` at
  them, scale each gathered entry by its edge's weight, and sum the scaled entries into zeros at the target rows;
  then drop the unit axis and add the bias.
-/
import proofs.«178427_j33346126086445_2_alg».proof.KernelIdeal
import proofs.«178427_j33346126086445_2_alg».proof.Proof.Gen.KernelIdeal
import Idealize.ShloMosaic.PureOps.Ideal

noncomputable section

namespace Cert.KernelIdeal.Tail

open Cert.KernelIdeal Cert.KernelIdeal.Gen Idealize.ShloMosaic

/-- The source rows as the column of start indices a gather reads: negative rows wrapped by 100000. -/
def rowStarts (row : IVec S700000 32) : IVec S700000x1 32 :=
  broadcastInDim S700000x1 ![0] bcast_S700000_S700000x1_0
    (select (cmpi CmpIPredicate.slt row (broadcastInDim S700000 ![] bcast_S_S700000 (constantI S_ 32 0#32)))
      (addi row (broadcastInDim S700000 ![] bcast_S_S700000 (constantI S_ 32 100000#32))) row)

/-- One propagation of a column signal along the edges. -/
def hopFn (y : FVec Ideal S100000x1 .f32) (col : IVec S700000 32) (nrm : FVec Ideal S700000 .f32) (row : IVec S700000 32) :
    FVec Ideal S100000x1 .f32 :=
  Host.scatterAdd (F := Ideal) scatter_S100000x1_S700000x1_S700000x1_1_0_0_1
    (broadcastInDim S100000x1 ![] bcast_S_S100000x1 (constant (F := Ideal) S_ FTy.f32 0#32))
    (broadcastInDim S700000x1 ![0] bcast_S700000_S700000x1_0 col)
    (mulf (broadcastInDim S700000x1 ![0] bcast_S700000_S700000x1_0 nrm)
      (Host.gather gather_S100000x1_S700000x1_S700000x1_1_0_n_n_0_1_11 y (rowStarts row)))

/-- The whole tail. -/
def tailFn (y : FVec Ideal S100000x1 .f32) (col : IVec S700000 32) (nrm : FVec Ideal S700000 .f32) (row : IVec S700000 32)
    (b : FVec Ideal S1 .f32) : FVec Ideal S100000 .f32 :=
  addf (fun i => shapeCast S100000 (hopFn (hopFn y col nrm row) col nrm row) shapeCasts_S100000x1_S100000 i)
    (broadcastInDim S100000 ![0] bcast_S1_S100000_0 b)

end Cert.KernelIdeal.Tail

end
-- ==== Proof.NormOf.lean ====
/-
  The edges' weights as a function of the two index arrays. From the target rows `col`: the degree of every node is the
  sum of ones landing on it (self loops included); `dis` is its inverse square root where the degree is positive and zero
  elsewhere. From the source rows `row` as well: the weight of an edge is `dis` at its source row times one times `dis` at
  its target row, both rows wrapped by 100000 when negative. At the reference's own index arrays this is the
  reference's stage of the weights.
-/
import proofs.«178427_j33346126086445_2_alg».proof.Proof.TailFn
import proofs.«178427_j33346126086445_2_alg».proof.Proof.RefRead

noncomputable section

namespace Cert.KernelIdeal.NormOf

open Cert.KernelIdeal Cert.KernelIdeal.Gen Idealize.ShloMosaic

/-- The degree of every node: ones summed into zeros at the edges' target rows. -/
def deg (col : IVec S700000 32) : FVec Ideal S100000 .f32 :=
  Host.scatterAdd (F := Ideal) scatter_S100000_S700000x1_S700000_n_0_0_1
    (broadcastInDim S100000 ![] bcast_S_S100000 (constant (F := Ideal) S_ .f32 0x00000000#32))
    (broadcastInDim S700000x1 ![0] bcast_S700000_S700000x1_0 col)
    (broadcastInDim S700000 ![] bcast_S_S700000 (constant (F := Ideal) S_ .f32 0x3F800000#32))

/-- deg^(-1/2) where the degree is positive, zero elsewhere. -/
def dis (col : IVec S700000 32) : FVec Ideal S100000 .f32 :=
  select (cmpf (F := Ideal) (φ := .f32) .ogt (deg col) (broadcastInDim S100000 ![] bcast_S_S100000 (constant (F := Ideal) S_ .f32 0x00000000#32)))
    (Host.rsqrt (F := Ideal) (deg col))
    (broadcastInDim S100000 ![] bcast_S_S100000 (id (constant (F := Ideal) S_ .f32 0x00000000#32)))

/-- The weight of every edge: `dis` at its source, times one, times `dis` at its target. -/
def normOf (row col : IVec S700000 32) : FVec Ideal S700000 .f32 :=
  mulf
    (mulf (Host.gather gather_S100000_S700000x1_S700000_n_0_n_n_0_1_1 (dis col) (Tail.rowStarts row))
      (broadcastInDim S700000 ![] bcast_S_S700000 (constant (F := Ideal) S_ .f32 0x3F800000#32)))
    (Host.gather gather_S100000_S700000x1_S700000_n_0_n_n_0_1_1 (dis col) (Tail.rowStarts col))

set_option maxRecDepth 8192 in
/-- At the reference's index arrays the weights are the reference's stage. -/
theorem normOf_eq (ei : IVec Cert.ReferenceIdeal.S2x600000 32) :
    normOf (Cert.ReferenceIdeal.ReadP.val_main_v3 (F := Ideal) ei) (Cert.ReferenceIdeal.ReadP.val_main_v6 (F := Ideal) ei)
      = Cert.ReferenceIdeal.ReadP.val_main_v30 (F := Ideal) ei := by
  unfold normOf dis deg Tail.rowStarts
  rfl

end Cert.KernelIdeal.NormOf

end
-- ==== Proof.TailValue.lean ====
/-
  THE KERNEL'S HOST TAIL READ AT A NODE.

  After its region the kernel holds the projected column `y(n) = Σ_k x(n, k) · W(0, k)` as a `[100000, 1]` array and
  propagates it twice along the edges on the host, then drops the unit axis and adds the bias:
    p1(n) = Σ_{e → n} c e · y(src e),   p2(n) = Σ_{e → n} c e · p1(src e),   out(n) = p2(n) + b.
  A propagation is a gather by rows at the edges' source rows (negative rows wrapped by 100000, then clamped by the
  gather), a product with the edge weights laid out as a column, and a scatter-add by rows into zeros at the edges'
  target rows — the reference's propagation at one column instead of 128. Read with the arrays the reference names
  (target rows, weights, source rows), the index columns are the reference's own, so the edges landing on a node, the
  source of an edge and the weight of an edge are the common ones.
-/
import proofs.«178427_j33346126086445_2_alg».proof.Proof.TailFn
import proofs.«178427_j33346126086445_2_alg».proof.Proof.Hops
import Idealize.ShloMosaic.Lib.ValueIdx
import Idealize.ShloMosaic.Lib.Pipeline.Value

set_option maxRecDepth 16384

noncomputable section

open scoped BigOperators

namespace Cert.KernelIdeal.TailValue

open Cert.KernelIdeal Cert.KernelIdeal.Gen Cert.KernelIdeal.Tail Cert.Hops Cert.Lib.RowScatter Idealize.ShloMosaic Idealize.ShloMosaic.ValueIdx

/-! ## The dimension numbers and the index columns -/

/-- The tail's gather dimension numbers are the gather by rows of a `[100000, 1]` operand at `[700000, 1]` start
    indices: the two records have the same fields. -/
theorem gatherDims_eq :
    gather_S100000x1_S700000x1_S700000x1_1_0_n_n_0_1_11
      = rowGatherDims 100000 700000 1 Cert.KernelIdeal.Facts₀.gather_S100000x1_S700000x1_S700000x1_1_0_n_n_0_1_11_wf := rfl

/-- The tail's scatter dimension numbers are the scatter by rows of `[700000, 1]` updates into a `[100000, 1]`
    operand at `[700000, 1]` scatter indices: the two records have the same fields. -/
theorem scatterDims_eq :
    scatter_S100000x1_S700000x1_S700000x1_1_0_0_1
      = rowScatterDims 100000 700000 1 Cert.KernelIdeal.Facts₀.scatter_S100000x1_S700000x1_S700000x1_1_0_0_1_wf := rfl

/-- The tail's column of start rows, built from the reference's source rows, is the reference's: both are the
    broadcast to a column of `select (row < 0) (row + 100000) row`. -/
theorem rowStarts_eq (ei : IVec Cert.ReferenceIdeal.S2x600000 32) :
    Cert.KernelIdeal.Tail.rowStarts (Cert.ReferenceIdeal.ReadP.val_main_v3 (F := Ideal) ei) = Cert.Hops.rowIdx ei := rfl

/-- The tail's column of target rows, built from the reference's target rows, is the reference's: both are that
    array broadcast to a column. -/
theorem colStarts_eq (ei : IVec Cert.ReferenceIdeal.S2x600000 32) :
    broadcastInDim Cert.KernelIdeal.S700000x1 ![0] Cert.KernelIdeal.Gen.bcast_S700000_S700000x1_0
        (Cert.ReferenceIdeal.ReadP.val_main_v6 (F := Ideal) ei) = Cert.Hops.colIdx ei := rfl

/-- The scatter's operand is zero at every index: the broadcast of the zero word, which is the extended real `0`. -/
theorem zeros_apply (i : Cert.KernelIdeal.S100000x1.Idx) :
    broadcastInDim Cert.KernelIdeal.S100000x1 ![] Cert.KernelIdeal.Gen.bcast_S_S100000x1
      (constant (F := Ideal) Cert.KernelIdeal.S_ FTy.f32 0#32) i = (0 : EReal) := by
  rw [broadcastInDim_apply _ Cert.KernelIdeal.Gen.bcast_S_S100000x1 _ i (fun a => a.elim0) (fun a => a.elim0), constant_apply]
  exact Ideal.ofBits_zero_f32

/-- The weights laid out as a column: at `(e, 0)` the weight at `e`. -/
theorem nrmCol_apply (nrm : FVec Ideal Cert.KernelIdeal.S700000 .f32) (e : Fin 700000) :
    broadcastInDim Cert.KernelIdeal.S700000x1 ![0] Cert.KernelIdeal.Gen.bcast_S700000_S700000x1_0 nrm (ix2 e (0 : Fin 1))
      = nrm (ix1 e) :=
  broadcastInDim_apply _ Cert.KernelIdeal.Gen.bcast_S700000_S700000x1_0 nrm (ix2 e (0 : Fin 1)) (ix1 e) (fun a => match a with
    | ⟨0, _⟩ => by show e.val = if (700000 : Nat) = 1 then 0 else e.val; rw [if_neg (by decide)])

/-! ## One propagation, and the tail -/

/-- ONE PROPAGATION OF A COLUMN READ AT NODE `n`: the sum, over the edges `e` landing on `n`, of
    `c e · y(src e, 0)`. The scatter-add read at `(n, 0)` is the operand (zero) plus the sum over the landing rows of
    the update; the update at `(e, 0)` is the weight of `e` times the gather, which reads `y` at the clamped
    source row of `e`. -/
theorem hopFn_apply (ei : IVec Cert.ReferenceIdeal.S2x600000 32) (y : FVec Ideal Cert.KernelIdeal.S100000x1 .f32) (n : Fin 100000) :
    Cert.KernelIdeal.Tail.hopFn y (Cert.ReferenceIdeal.ReadP.val_main_v6 (F := Ideal) ei)
        (Cert.ReferenceIdeal.ReadP.val_main_v30 (F := Ideal) ei) (Cert.ReferenceIdeal.ReadP.val_main_v3 (F := Ideal) ei) (ix2 n (0 : Fin 1))
      = ∑ e ∈ Cert.Hops.into ei n, Cert.Hops.wt ei e * y (ix2 (Cert.Hops.src ei e) (0 : Fin 1)) := by
  unfold Cert.KernelIdeal.Tail.hopFn
  rw [scatterDims_eq, rowScatterAdd_apply, zeros_apply, zero_add, colStarts_eq]
  refine Finset.sum_congr rfl fun e _ => ?_
  rw [mulf_apply, nrmCol_apply, gatherDims_eq, rowStarts_eq, rowGather_apply (hN := by decide)]
  unfold Cert.Hops.wt Cert.Hops.src
  rfl

/-- Dropping the unit axis and adding the bias, read at node `n`: the `[100000, 1]` array at `(n, 0)` (row-major,
    `n · 1 + 0 = n`) plus `b(0)` (the bias broadcast along the nodes reads its only entry). Stated for any array
    `h2`, so that nothing of the array's own definition is looked into. -/
theorem tail_read (h2 : FVec Ideal Cert.KernelIdeal.S100000x1 .f32) (b : FVec Ideal Cert.KernelIdeal.S1 .f32) (n : Fin 100000) :
    addf (fun i => shapeCast Cert.KernelIdeal.S100000 h2 Cert.KernelIdeal.Gen.shapeCasts_S100000x1_S100000 i)
        (broadcastInDim Cert.KernelIdeal.S100000 ![0] Cert.KernelIdeal.Gen.bcast_S1_S100000_0 b) (ix1 n)
      = h2 (ix2 n (0 : Fin 1)) + b (ix1 (0 : Fin 1)) := by
  rw [addf_apply]
  have h1 : shapeCast Cert.KernelIdeal.S100000 h2 Cert.KernelIdeal.Gen.shapeCasts_S100000x1_S100000 (ix1 n) = h2 (ix2 n (0 : Fin 1)) :=
    shapeCast_apply h2 Cert.KernelIdeal.Gen.shapeCasts_S100000x1_S100000 (ix1 n) (ix2 n (0 : Fin 1))
      (by rewrite [Shape.rowMajor_val_two, Shape.rowMajor_val_one]; show n.val * 1 + 0 = n.val; omega)
  have h3 : broadcastInDim Cert.KernelIdeal.S100000 ![0] Cert.KernelIdeal.Gen.bcast_S1_S100000_0 b (ix1 n) = b (ix1 (0 : Fin 1)) :=
    broadcastInDim_apply _ Cert.KernelIdeal.Gen.bcast_S1_S100000_0 b (ix1 n) (ix1 (0 : Fin 1)) (fun a => match a with
      | ⟨0, _⟩ => by show 0 = if (1 : Nat) = 1 then 0 else n.val; rw [if_pos rfl])
  rw [h3]
  exact congrArg (· + b (ix1 (0 : Fin 1))) h1

/-- THE TAIL READ AT NODE `n`: two propagations of the column, then the bias,
    `out(n) = Σ_{e → n} c e · Σ_{e' → src e} c e' · y(src e', 0) + b(0)`. -/
theorem tailFn_apply (ei : IVec Cert.ReferenceIdeal.S2x600000 32) (y : FVec Ideal Cert.KernelIdeal.S100000x1 .f32)
    (b : FVec Ideal Cert.KernelIdeal.S1 .f32) (n : Fin 100000) :
    Cert.KernelIdeal.Tail.tailFn y (Cert.ReferenceIdeal.ReadP.val_main_v6 (F := Ideal) ei)
        (Cert.ReferenceIdeal.ReadP.val_main_v30 (F := Ideal) ei) (Cert.ReferenceIdeal.ReadP.val_main_v3 (F := Ideal) ei) b (ix1 n)
      = (∑ e ∈ Cert.Hops.into ei n, Cert.Hops.wt ei e * (∑ e' ∈ Cert.Hops.into ei (Cert.Hops.src ei e), Cert.Hops.wt ei e' * y (ix2 (Cert.Hops.src ei e') (0 : Fin 1))))
        + b (ix1 (0 : Fin 1)) := by
  unfold Cert.KernelIdeal.Tail.tailFn
  rw [tail_read, hopFn_apply]
  refine congrArg (· + b (ix1 (0 : Fin 1))) ?_
  refine Finset.sum_congr rfl fun e _ => ?_
  rw [hopFn_apply]

end Cert.KernelIdeal.TailValue

end
-- ==== Proof.KernelValue.lean ====
/-
  The idealized kernel's result, read. After the region the kernel's program runs its host tail on the projected
  column the region left and on three arrays computed before the region (the edges' target rows, their weights, their
  source rows) and the bias. Before the region it computed those three arrays by the very operations the reference
  uses, so they are the reference's stages of the edge list. With the region's array known to be the row products
  `rowDot x W`, the result at node `n` is the common value `G x ei W b n`.
-/
import proofs.«178427_j33346126086445_2_alg».proof.Proof.ProjectArr
import proofs.«178427_j33346126086445_2_alg».proof.Proof.Hops
import proofs.«178427_j33346126086445_2_alg».proof.Proof.TailFn
import proofs.«178427_j33346126086445_2_alg».proof.Proof.NormOf
import proofs.«178427_j33346126086445_2_alg».proof.Proof.TailValue
import Idealize.ShloMosaic.Lib.StableHlo.Run

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx Idealize.ShloMosaic.StableHlo
open Idealize.SL.Sem
open Cert.KernelIdeal.Project

variable (m : (ℓ : Loc nD τ sig) → Buf (Elt Ideal) ℓ) (ρ : Dev nD → PrngReg)

/-! ## The arrays the host operations before the region leave -/

set_option maxHeartbeats 8000000 in
/-- The edges' source rows (the first row of the edge list, then the self loops). -/
theorem v3_eq (c : Dev nD) : (V m c main_v3 : S700000.Idx → BitVec 32)
    = Cert.ReferenceIdeal.ReadP.val_main_v3 (F := Ideal) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  rfl

set_option maxHeartbeats 8000000 in
/-- The edges' target rows (the second row of the edge list, then the self loops). -/
theorem v6_eq (c : Dev nD) : (V m c main_v6 : S700000.Idx → BitVec 32)
    = Cert.ReferenceIdeal.ReadP.val_main_v6 (F := Ideal) (m ((c.tc : Thread nD τ).loc main_arg1)) := by
  dsimp only [Gen.V, Gen.V0]
  simp only [Gen.hostOps0, Gen.hostOps0_1, Gen.hostOps0_2, List.flatten_cons, List.flatten_nil, List.append_nil, List.cons_append, List.nil_append]
  after_results_simp
  rfl

/-- Running two lists of host operations one after the other composes their effects on the contents. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-! ## The inlined call's buffers: contents move through them unchanged

The outlined `where` function is printed in the call's place over typed references; a value written to one of
its buffers and read back, or read at a buffer whose type is the value's, is the value. -/

/-- Writing a value into a typed buffer and reading it back gives the value. -/
theorem ofBuf_toBuf {T : BufTy} (x : StableHlo.TRef sig T) (v : T.Contents (Elt Ideal)) : x.ofBuf (x.toBuf v) = v := by
  obtain ⟨r, h, a, b⟩ := x
  subst h
  rfl
theorem toBuf_v14 (v : (⟨S100000, .f32⟩ : BufTy).Contents (Elt Ideal)) :
    (StableHlo.TRef.of main_v14 : StableHlo.TRef sig ⟨S100000, .f32⟩).toBuf v = v := rfl
theorem ofBuf_v12 (u : (⟨S100000, .i1⟩ : BufTy).Contents (Elt Ideal)) :
    (StableHlo.TRef.of main_v12 : StableHlo.TRef sig ⟨S100000, .i1⟩).ofBuf u = u := rfl
theorem ofBuf_v13 (u : (⟨S100000, .f32⟩ : BufTy).Contents (Elt Ideal)) :
    (StableHlo.TRef.of main_v13 : StableHlo.TRef sig ⟨S100000, .f32⟩).ofBuf u = u := rfl
theorem ofBuf_cst2 (u : (⟨S_, .f32⟩ : BufTy).Contents (Elt Ideal)) :
    (StableHlo.TRef.of main_cst_2 : StableHlo.TRef sig ⟨S_, .f32⟩).ofBuf u = u := rfl

/-- The host operations before the region that come after the two index arrays are built (the first seven operations
    build them). -/
abbrev restOps : List (HloOp τ sig (Elt Ideal)) := (hostOps0 (F := Ideal)).drop 7 ++ hostOps0_1 ++ hostOps0_2

set_option maxHeartbeats 16000000 in
/-- From ANY contents those operations leave the two index arrays alone and compute the weights from them. -/
theorem rest_reads (W : Valuation τ sig (Elt Ideal)) :
    StableHlo.after restOps W (Proc.devRef .tc main_v30)
      = NormOf.normOf (W (Proc.devRef .tc main_v3)) (W (Proc.devRef .tc main_v6))
    ∧ StableHlo.after restOps W (Proc.devRef .tc main_v3) = W (Proc.devRef .tc main_v3)
    ∧ StableHlo.after restOps W (Proc.devRef .tc main_v6) = W (Proc.devRef .tc main_v6) := by
  simp only [restOps, hostOps0, hostOps0_1, hostOps0_2, List.drop_succ_cons, List.drop_zero, List.cons_append, List.nil_append]
  refine ⟨?_, ?_, ?_⟩
  · after_results_simp
    simp only [ofBuf_toBuf, toBuf_v14, ofBuf_v12, ofBuf_v13, ofBuf_cst2]
    rfl
  · after_results_simp
  · after_results_simp

/-- The edges' weights are the weight function of the two index arrays as the region finds them. -/
theorem v30_eq (c : Dev nD) : (V m c main_v30 : S700000.Idx → EReal) = NormOf.normOf (V m c main_v3) (V m c main_v6) := by
  have hs : List.flatten [hostOps0 (F := Ideal), hostOps0_1, hostOps0_2] = (hostOps0 (F := Ideal)).take 7 ++ restOps := by
    simp only [restOps, List.flatten_cons, List.flatten_nil, List.append_nil, ← List.append_assoc, List.take_append_drop]
  dsimp only [Gen.V, Gen.V0]
  rw [hs, after_append]
  obtain ⟨h30, h3, h6⟩ := rest_reads (StableHlo.after ((hostOps0 (F := Ideal)).take 7) (fun b => m (c, b)))
  rw [h30, h3, h6]

/-! ## The tail, read back -/

set_option maxHeartbeats 8000000 in
/-- The result buffer after the tail is the tail's function of the region's array and of the four arrays it reads
    as the region found them. -/
theorem tail_eq (c : Dev nD) :
    Pipeline.afterTail₀ cfgs (dats m) 0 (V0 m) [hostOps1] c main_v58
      = Tail.tailFn ((dats m 0 c).arrAt 2 cfg0.N) (V m c main_v6) (V m c main_v30) (V m c main_v3) (V m c main_arg3) := by
  unfold Pipeline.afterTail₀
  show StableHlo.after hostOps1 _ (Proc.devRef .tc main_v58) = _
  after_results_simp
  have h31 : Pipeline.withArrays (cfgs 0).spec c (V0 m c) (fun w => (dats m 0 c).arrAt w (cfgs 0).N) (Proc.devRef .tc main_v31)
      = (dats m 0 c).arrAt 2 cfg0.N :=
    Pipeline.withArrays_arr (cfgs 0).spec launch0.win.arr_inj c (V0 m c) (fun w => (dats m 0 c).arrAt w (cfgs 0).N) 2
  have h6 := Pipeline.withArrays_of_ne (cfgs 0).spec c (V0 m c) (fun w => (dats m 0 c).arrAt w (cfgs 0).N) main_v6
    (by exact (by decide : ∀ w, Pipeline.arrRef spec0 w ≠ main_v6))
  have h30 := Pipeline.withArrays_of_ne (cfgs 0).spec c (V0 m c) (fun w => (dats m 0 c).arrAt w (cfgs 0).N) main_v30
    (by exact (by decide : ∀ w, Pipeline.arrRef spec0 w ≠ main_v30))
  have h3 := Pipeline.withArrays_of_ne (cfgs 0).spec c (V0 m c) (fun w => (dats m 0 c).arrAt w (cfgs 0).N) main_v3
    (by exact (by decide : ∀ w, Pipeline.arrRef spec0 w ≠ main_v3))
  have hb := Pipeline.withArrays_of_ne (cfgs 0).spec c (V0 m c) (fun w => (dats m 0 c).arrAt w (cfgs 0).N) main_arg3
    (by exact (by decide : ∀ w, Pipeline.arrRef spec0 w ≠ main_arg3))
  rw [h31, h6, h30, h3, hb]
  rfl

/-- THE KERNEL'S RESULT at node `n` is the common value. -/
theorem kernel_apply (c : Dev nD) (n : Fin 100000) :
    Pipeline.afterTail₀ cfgs (dats m) 0 (V0 m) [hostOps1] c main_v58 (ix1 n)
      = Cert.Hops.G (m ((c.tc : Thread nD τ).loc main_arg0)) (m ((c.tc : Thread nD τ).loc main_arg1))
          (m ((c.tc : Thread nD τ).loc main_arg2)) (m ((c.tc : Thread nD τ).loc main_arg3)) n := by
  rw [tail_eq, Project.final, v30_eq, v6_eq, v3_eq, NormOf.normOf_eq, V_main_arg0, V_main_arg2, V_main_arg3]
  rw [Cert.KernelIdeal.TailValue.tailFn_apply]
  rfl

/-- The common result as a vector over the nodes. -/
def Gvec (x : S100000x128.Idx → EReal) (ei : IVec S2x600000 32) (w : S1x128.Idx → EReal) (b : S1.Idx → EReal) : S100000.Idx → EReal :=
  fun i => Cert.Hops.G x ei w b (⟨(i 0).val, (i 0).isLt⟩ : Fin 100000)

/-- The kernel's result buffer after the tail is the common vector of its arguments. -/
theorem kernel_value (c : Dev nD) :
    Pipeline.afterTail₀ cfgs (dats m) 0 (V0 m) [hostOps1] c main_v58
      = Gvec (m ((c.tc : Thread nD τ).loc main_arg0)) (m ((c.tc : Thread nD τ).loc main_arg1))
          (m ((c.tc : Thread nD τ).loc main_arg2)) (m ((c.tc : Thread nD τ).loc main_arg3)) := by
  funext i
  obtain ⟨n, rfl⟩ : ∃ n : Fin 100000, i = ix1 n := ⟨i 0, eq_ix1 i⟩
  exact kernel_apply m c n

/-- THE KERNEL'S RUN, READ: every weakly fair execution terminates with the result at the common vector of the
    arguments and the arguments unchanged (the generated frame run, its post read at the result buffer and at the
    argument arrays). -/
theorem kernel_run : θ_run defs (onTc (τ := τ) (main (F := Ideal))) ⟨m, fun _ => 0, ρ⟩ (fun r => ∀ c : Dev nD,
      r.2.mem ((c.tc : Thread nD τ).loc main_v58)
        = Gvec (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v58 (Pipeline.mem_restRefs_of main_v58 (by decide) (by decide))).trans (kernel_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KernelValue

end
-- ==== Proof.lean ====
/-
  The certificate's five claims.

  The kernel computes A·A·(x·Wᵀ) + b and the reference (A·A·x)·Wᵀ + b, where A is the normalised adjacency of the graph
  given by the edge list with self loops appended: (A·v)(n) = Σ_{edges e landing on n} c(e) · v(src e), with
  c(e) = deg(src e)^(-1/2) · deg(dst e)^(-1/2) (zero where a degree is zero). A acts on the node axis and W on the feature
  axis, so they commute — over the reals. Over the extended reals a product does not distribute over a sum at the
  infinities, which is where the precondition enters: the features, the weight row and the bias are finite, and the
  edge weights are real numbers by construction (a degree is a finite sum of ones, its guarded inverse square root a
  real), so every quantity is a real and the two results are one number, node by node:
    G(n) = Σ_{e → n} c e · Σ_{e' → src e} c e' · (Σ_k x(src e', k) · W(0, k)) + b.

  The frames of the two kernel programs are the generated frame certificates; the reference's frame is its run with the
  result dropped. The idealization rewrote nothing, so `preserves` has no conjunct. For `algebraic`: the kernel's run ends
  with its result at G (the region's array is the row products x·Wᵀ, the host tail propagates that column twice), and
  the reference's run ends with its result at the two propagations of all 128 columns projected at the end, which is G
  by the commutation law.
-/
import proofs.«178427_j33346126086445_2_alg».proof.Defs
import proofs.«178427_j33346126086445_2_alg».proof.Proof.Gen.Kernel
import proofs.«178427_j33346126086445_2_alg».proof.Proof.Gen.Kernel.Frame
import proofs.«178427_j33346126086445_2_alg».proof.Proof.Gen.KernelIdeal
import proofs.«178427_j33346126086445_2_alg».proof.Proof.Gen.KernelIdeal.Frame
import proofs.«178427_j33346126086445_2_alg».proof.Proof.Gen.ReferenceIdeal
import proofs.«178427_j33346126086445_2_alg».proof.Proof.Gen.Pre_finite_inputs
import proofs.«178427_j33346126086445_2_alg».proof.Proof.RefRun
import proofs.«178427_j33346126086445_2_alg».proof.Proof.RefRead
import proofs.«178427_j33346126086445_2_alg».proof.Proof.RefValue
import proofs.«178427_j33346126086445_2_alg».proof.Proof.HopsLaw
import proofs.«178427_j33346126086445_2_alg».proof.Proof.PreReal
import proofs.«178427_j33346126086445_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the result at the common vector G of the (agreeing) arguments. -/
theorem algebraic : Cert.algebraic_KernelIdeal_ReferenceIdeal := by
  intro m ρ m' ρ' hpre hagree
  refine ⟨fun c => Cert.KernelIdeal.KernelValue.Gvec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw, -⟩ := Cert.PreReal.inputs_real _ _ _ _ (hpre c)
  rw [Cert.ReferenceIdeal.ReadP.val_main_v62_eq, (hagree c).1, (hagree c).2.1, (hagree c).2.2.1, (hagree c).2.2.2]
  funext i
  obtain ⟨n, rfl⟩ : ∃ n : Fin 100000, i = ix1 n := ⟨i 0, eq_ix1 i⟩
  rw [Cert.RefValue.ref_apply]
  exact Cert.HopsLaw.twoHop_G _ _ _ _ hx hw n

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
